-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x4096 : Shape := ⟨2, ![1024, 4096]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16x1024x1024 .f32) (main_arg1 : FVec F S1024x4096 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S16x1024x1024 : Shape := ⟨3, ![16, 1024, 1024]⟩
abbrev S1024x4096 : Shape := ⟨2, ![1024, 4096]⟩
abbrev S16x1024x4096 : Shape := ⟨3, ![16, 1024, 4096]⟩
abbrev S1x64x1024 : Shape := ⟨3, ![1, 64, 1024]⟩
abbrev S1024x256 : Shape := ⟨2, ![1024, 256]⟩
abbrev S1x1024x256 : Shape := ⟨3, ![1, 1024, 256]⟩
abbrev S64x1024 : Shape := ⟨2, ![64, 1024]⟩
abbrev S64x256 : Shape := ⟨2, ![64, 256]⟩
abbrev S1x64x256 : Shape := ⟨3, ![1, 64, 256]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S1024x4096, .f32⟩
  | .hbm, ⟨2, _⟩ => ⟨S16x1024x4096, .f32⟩
  | .local _ .vmem, ⟨0, _⟩ => ⟨S1x64x1024, .f32⟩
  | .local _ .vmem, ⟨1, _⟩ => ⟨S1x64x1024, .f32⟩
  | .local _ .vmem, ⟨2, _⟩ => ⟨S1024x256, .f32⟩
  | .local _ .vmem, ⟨3, _⟩ => ⟨S1024x256, .f32⟩
  | .local _ .vmem, ⟨4, _⟩ => ⟨S1x1024x256, .f32⟩
  | .local _ .vmem, ⟨5, _⟩ => ⟨S1x1024x256, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg0 : BitVec 32 := BitVec.ofNat 32 (i 0).val
  let c64_i32 : BitVec 32 := 64#32
  let v4 : BitVec 32 := Scalar.muli arg0 c64_i32
  v4
def k0_off1 (i : grid0.Coords) : Fin 3 → Nat :=
  let c0_10 : Index := 0#32
  let arg0 : BitVec 32 := BitVec.ofNat 32 (i 0).val
  let c64_i32 : BitVec 32 := 64#32
  let v4 : BitVec 32 := Scalar.muli arg0 c64_i32
  let v5 : BitVec 32 := v4
  let v28 : Index := Scalar.indexCast v5
  let c0_11 : Index := 0#32
  ![0, v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024x256_S1024x256_0_0 : ∀ a, (![0, 0] : Fin 2 → Nat) a + S1024x256.size a ≤ S1024x256.size a
  h_S1024x256 : 0 < S1024x256.numel
  iota_S64x256_d0_w32 : S64x256.Iotas .tc 32 [0]
  iota_S64x256_d1_w32 : S64x256.Iotas .tc 32 [1]
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  h_S1x64x256 : 0 < S1x64x256.numel
  shapeCasts_S1x64x256_S64x256 : S1x64x256.ShapeCasts S64x256
  shapeCasts_S64x256_S1x64x256 : S64x256.ShapeCasts S1x64x256
  dot_S64x1024_S1024x256_S64x256_1_0_0_1_n_n_wf : DotDims.WF S64x1024 S1024x256 S64x256 [1] [0] [0] [1] [] []
  hrank0 : 0 < grid0.rank
  k0_mult1_dvd : ∀ i : grid0.Coords, 64 ∣ (k0_mult1 i).toNat
  k0_off1_inb : ∀ i : grid0.Coords, ∀ a, (k0_off1 i) a + S1x64x256.size a ≤ S1x1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S16x1024x1024.size a
  hwx0_0 : ∀ i : grid0.Coords, EltTy.bits .f32 = 32 ∨ (Rect.block (s := S16x1024x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x4096.size a
  hwx0_1 : ∀ i : grid0.Coords, EltTy.bits .f32 = 32 ∨ (Rect.block (s := S1024x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x4096.size a
  hwx0_2 : ∀ i : grid0.Coords, EltTy.bits .f32 = 32 ∨ (Rect.block (s := S16x1024x4096) S1x1024x256.size (cc0_transform_2 i) (hinb0_2 i)).WholeWords (EltTy.packing .f32)

variable [Facts₀]

def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf

abbrev win0_0 : Pipeline.Window sig grid0 :=
  Pipeline.Window.ofSpec (Memref.whole main_arg0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S16x1024x4096 : Shape := ⟨3, ![16, 1024, 4096]⟩
abbrev S1x1024x4096 : Shape := ⟨3, ![1, 1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S1024x4096, .f32⟩
  | .hbm, ⟨2, _⟩ => ⟨S1024, .i32⟩
  | .hbm, ⟨3, _⟩ => ⟨S1024x1, .i32⟩
  | .hbm, ⟨4, _⟩ => ⟨S4096, .i32⟩
  | .hbm, ⟨5, _⟩ => ⟨S1x4096, .i32⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x4096, .i32⟩
  | .hbm, ⟨10, _⟩ => ⟨S1024x4096, .i32⟩
  | .hbm, ⟨11, _⟩ => ⟨S1024x4096, .i1⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x4096, .i32⟩
  | .hbm, ⟨19, _⟩ => ⟨S1024x4096, .i32⟩
  | .hbm, ⟨20, _⟩ => ⟨S1024x4096, .i1⟩
  | .hbm, ⟨21, _⟩ => ⟨S1024x4096, .i1⟩
  | .hbm, ⟨22, _⟩ => ⟨S1024x4096, .f32⟩
  | .hbm, ⟨23, _⟩ => ⟨S16x1024x4096, .f32⟩
  | .hbm, ⟨24, _⟩ => ⟨S1x1024x4096, .f32⟩
  | .hbm, ⟨25, _⟩ => ⟨S16x1024x4096, .f32⟩
  | .hbm, ⟨26, _⟩ => ⟨S16x1024x4096, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  bcast_S1024x4096_S1x1024x4096_1_2 : S1024x4096.BroadcastsInDim S1x1024x4096 (![1, 2] : Fin 2 → Fin S1x1024x4096.rank)
  bcast_S1x1024x4096_S16x1024x4096_0_1_2 : S1x1024x4096.BroadcastsInDim S16x1024x4096 (![0, 1, 2] : Fin 3 → Fin S16x1024x4096.rank)
  dot_S16x1024x1024_S1024x4096_S16x1024x4096_2_0_01_1_n_n_wf : DotDims.WF S16x1024x1024 S1024x4096 S16x1024x4096 [2] [0] [0, 1] [1] [] []

variable [Facts₀]

def dot_S16x1024x1024_S1024x4096_S16x1024x4096_2_0_01_1_n_n : DotDims S16x1024x1024 S1024x4096 S16x1024x4096 where
  lhsContracting := [2]
  rhsContracting := [0]
  lhsNonContracting := [0, 1]
  rhsNonContracting := [1]
  lhsBatch := []
  rhsBatch := []
  wf := dot_S16x1024x1024_S1024x4096_S16x1024x4096_2_0_01_1_n_n_wf

class Facts : Prop extends Facts₀ where

variable [Facts]
-- ==== Proof.Spec.lean ====
/-
  The banded product, as one function of the two argument arrays.

  For x of shape [16, 1024, 1024] and W of shape [1024, 4096] the result at (b, s, j) is the matrix product
  ∑ₖ x[b, s, k] · W[k, j] where column j lies in row s's band, 4·s ≤ j < 4·s + 4, and 0 elsewhere: the product
  of each x[b] with W, masked to four columns per row.

  Both programs compute the band's condition on 32-bit words: j ≥ 4·s and j < 4·(s + 1), compared signed. For a row
  below 1024 and a column below 4096 no product or sum overflows, so the word is the condition on the numbers.
-/
import Idealize.ShloMosaic.PureOps.Ideal
import Idealize.ShloMosaic.Lib.ValueIdx
import Idealize.ShloMosaic.Lib.WordArith
import Idealize.ShloMosaic.Lib.Affine

noncomputable section

open scoped BigOperators

namespace BandedProduct

open Idealize.ShloMosaic

/-- The shapes of x, of W and of the result. -/
abbrev SX : Shape := ⟨3, ![16, 1024, 1024]⟩
abbrev SW : Shape := ⟨2, ![1024, 4096]⟩
abbrev SY : Shape := ⟨3, ![16, 1024, 4096]⟩

/-- The band's condition as the programs compute it, on the words of a row `s` and a column `j`. -/
def bandWord (s j : BitVec 32) : BitVec 1 :=
  IntOp.andi (IntOp.cmpi .sge j (IntOp.muli s 4#32)) (IntOp.cmpi .slt j (IntOp.muli (IntOp.addi s 1#32) 4#32))

/-- For a row and a column of the result the word is set exactly when the column is in the row's band. -/
theorem bandWord_eq_one_iff (s j : Nat) (hs : s < 1024) (hj : j < 4096) :
    bandWord (BitVec.ofNat 32 s) (BitVec.ofNat 32 j) = 1#1 ↔ 4 * s ≤ j ∧ j < 4 * s + 4 := by
  have e1 : IntOp.muli (BitVec.ofNat 32 s) 4#32 = BitVec.ofNat 32 (4 * s) := by
    apply BitVec.eq_of_toNat_eq
    simp only [IntOp.muli, BitVec.toNat_mul, BitVec.toNat_ofNat]
    omega
  have e2 : IntOp.muli (IntOp.addi (BitVec.ofNat 32 s) 1#32) 4#32 = BitVec.ofNat 32 (4 * s + 4) := by
    apply BitVec.eq_of_toNat_eq
    simp only [IntOp.muli, IntOp.addi, BitVec.toNat_mul, BitVec.toNat_add, BitVec.toNat_ofNat]
    omega
  unfold bandWord
  rw [e1, e2]
  simp only [IntOp.cmpi, WordArith.andi_ofBool, WordArith.ofBool_eq_one_iff, Bool.and_eq_true, BitVec.sle_iff_toInt_le,
    BitVec.slt_iff_toInt_lt]
  rw [WordArith.toInt_ofNat_small j (by omega), WordArith.toInt_ofNat_small (4 * s) (by omega),
    WordArith.toInt_ofNat_small (4 * s + 4) (by omega)]
  omega

/-- Where x is read for the entry `i` of the result at position `k` of the sum: (b, s, k). -/
abbrev xAt (i : SY.Idx) (k : Fin 1024) : SX.Idx := fun a => match a with
  | ⟨0, _⟩ => ⟨(i 0).val, (i 0).isLt⟩
  | ⟨1, _⟩ => ⟨(i 1).val, (i 1).isLt⟩
  | ⟨2, _⟩ => k

/-- Where W is read for it: (k, j). -/
abbrev wAt (i : SY.Idx) (k : Fin 1024) : SW.Idx := fun a => match a with
  | ⟨0, _⟩ => k
  | ⟨1, _⟩ => ⟨(i 2).val, (i 2).isLt⟩

/-- The banded product of x and W. -/
def banded (x : SX.Idx → EReal) (W : SW.Idx → EReal) : SY.Idx → EReal := fun i =>
  if 4 * (i 1).val ≤ (i 2).val ∧ (i 2).val < 4 * (i 1).val + 4 then ∑ k : Fin 1024, x (xAt i k) * W (wAt i k) else 0

end BandedProduct

end
-- ==== Proof.ReferenceBanded.lean ====
/-
  The reference computes the banded product.

  Read at an entry (b, s, j) the reference is the matrix product ∑ₖ x[b, s, k] · W[k, j] times the mask's entry at
  (s, j), and the mask's entry is the band's word converted to a float: 1 where the word is set and 0 where it is
  not. A product with 1 is the product itself and a product with 0 is 0 on every extended real, the infinities
  included, so no finiteness of x or W is used.
-/
import proofs.«179926_j41463614275882_2_alg».proof.Proof.Gen.ReferenceIdeal.Read
import proofs.«179926_j41463614275882_2_alg».proof.Proof.Spec

noncomputable section

open scoped BigOperators

namespace Cert.ReferenceIdeal.Banded

open Cert.ReferenceIdeal Cert.ReferenceIdeal.Gen Cert.ReferenceIdeal.Read Idealize.ShloMosaic Idealize.ShloMosaic.ValueIdx
open BandedProduct

variable {F : FTy → Type} [FloatOps F]

/-- The mask's condition at row `s` and column `j` is the band's word of the two coordinates. -/
theorem mask_word (p : S1024x4096.Idx) :
    val_main_v16 (F := F) p = bandWord (BitVec.ofNat 32 (p 0).val) (BitVec.ofNat 32 (p 1).val) := by
  simp only [val_main_v16_apply, val_main_v8_apply, val_main_v15_apply, val_main_v6_apply, val_main_v7_apply,
    val_main_v13_apply, val_main_v14_apply, val_main_v3_apply, val_main_v2_apply, val_main_v5_apply, val_main_v12_apply,
    val_main_v10_apply, val_main_v1_apply, val_main_v0_apply, val_main_v4_apply, val_main_v9_apply, val_main_v11_apply,
    val_main_c_apply, val_main_c_0_apply, val_main_c_1_apply]
  rfl

/-- A one-bit word converted to a float is 1 when set … -/
theorem uitofp_one : FloatOps.uitofp (F := Ideal) .f32 (1#1 : BitVec 1) = (1 : EReal) := by
  show (((1#1 : BitVec 1).toNat : ℝ) : EReal) = 1
  simp

/-- … and 0 when clear. -/
theorem uitofp_zero : FloatOps.uitofp (F := Ideal) .f32 (0#1 : BitVec 1) = (0 : EReal) := by
  show (((0#1 : BitVec 1).toNat : ℝ) : EReal) = 0
  simp

/-- The reference's result is the banded product of its two arguments. -/
theorem reference_eq (x : (⟨S16x1024x1024, .f32⟩ : BufTy).Contents (Elt Ideal)) (W : (⟨S1024x4096, .f32⟩ : BufTy).Contents (Elt Ideal)) :
    val_main_v21 (F := Ideal) x W = banded x W := by
  funext i
  rw [val_main_v21_apply, val_main_v18_apply, val_main_v20_apply, val_main_v19_apply, val_main_v17_apply, mask_word]
  unfold banded
  show (∑ k : Fin 1024, x (lidx_main_v18 i k) * W (ridx_main_v18 i k)) * FloatOps.uitofp (F := Ideal) .f32 (bandWord (BitVec.ofNat 32 (i 1).val) (BitVec.ofNat 32 (i 2).val)) = _
  by_cases h : 4 * (i 1).val ≤ (i 2).val ∧ (i 2).val < 4 * (i 1).val + 4
  · rw [if_pos h, (bandWord_eq_one_iff _ _ (i 1).isLt (i 2).isLt).mpr h, uitofp_one, mul_one]
    rfl
  · rw [if_neg h, eq_zero_of_ne_one (fun e => h ((bandWord_eq_one_iff _ _ (i 1).isLt (i 2).isLt).mp e)), uitofp_zero, mul_zero]

end Cert.ReferenceIdeal.Banded

end
-- ==== Proof.BandBlock.lean ====
/-
  What one grid point leaves in its output block.

  The output block of a grid point is a [1, 1024, 256] slab. The body first stores zeros over the whole slab and then
  stores a [1, 64, 256] band of values over rows 64·n … 64·n + 63, where n is the point's coordinate on the first grid
  axis. The later store hides the earlier one under its rectangle, so an element of the slab whose row lies in the band
  holds the band's value at the row's position within the band, and every other element holds the zero fill.
-/
import proofs.«179926_j41463614275882_2_alg».proof.Proof.Gen.KernelIdeal.Value
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem

namespace Cert.KernelIdeal.Band

open Cert.KernelIdeal Cert.KernelIdeal.Gen

variable {F : FTy → Type} [FloatOps F]

/-- The zero offsets of a rank-3 whole-block access. -/
theorem zeros3 : (![0, 0, 0] : Fin 3 → Nat) = fun _ => 0 := funext fun a => by fin_cases a <;> rfl

/-- The zero offsets of a rank-2 whole-block access. -/
theorem zeros2 : (![0, 0] : Fin 2 → Nat) = fun _ => 0 := funext fun a => by fin_cases a <;> rfl

/-- An element of the output block whose row is row `x 1` of the band (row `64·n + x 1` of the block) holds the band's
    value at `x`: the band was stored last. -/
theorem block_in_band (c : Dev nD) (i : grid0.Coords) (arg2 : Memref sig .tc .vmem S1x64x1024 .f32) (harg2 : arg2.IsWhole)
    (arg3 : Memref sig .tc .vmem S1024x256 .f32) (harg3 : arg3.IsWhole) (arg4 : Memref sig .tc .vmem S1x1024x256 .f32)
    (harg4 : arg4.IsWhole) (x0 : Vec F S1x64x1024 .f32) (x1 : Vec F S1024x256 .f32) (y : S1x1024x256.Idx) (x : S1x64x256.Idx)
    (hx : ∀ a, (y a).val = (![0, 64 * (i 0).val, 0] : Fin 3 → Nat) a + (x a).val) :
    out0_A_2 c i arg2 harg2 arg3 harg3 arg4 harg4 x0 x1 y = k0_pay2 i x0 x1 x := by
  unfold out0_A_2
  unfold kernelRun0_A
  dsimp only
  try sl_unfold_words
  refine (View.read_writes_cons_unit_of_mem VO0_2 VO0_2.junk (k0_off1_inb i) _ _ y x (k0_off1_eq i) hx).trans ?_
  simp only [View.readAt_eq_ld, harg2.read_unread, harg3.read_unread, View.ld_unit_zero (S := S1x64x1024) zeros3,
    View.ld_unit_zero (S := S1024x256) zeros2]

/-- An element of the output block whose row is outside the band holds the zero fill: only the first store reaches it. -/
theorem block_off_band (c : Dev nD) (i : grid0.Coords) (arg2 : Memref sig .tc .vmem S1x64x1024 .f32) (harg2 : arg2.IsWhole)
    (arg3 : Memref sig .tc .vmem S1024x256 .f32) (harg3 : arg3.IsWhole) (arg4 : Memref sig .tc .vmem S1x1024x256 .f32)
    (harg4 : arg4.IsWhole) (x0 : Vec F S1x64x1024 .f32) (x1 : Vec F S1024x256 .f32) (y : S1x1024x256.Idx)
    (h : (y 1).val < 64 * (i 0).val ∨ 64 * (i 0).val + 64 ≤ (y 1).val) :
    out0_A_2 c i arg2 harg2 arg3 harg3 arg4 harg4 x0 x1 y = k0_pay1 y := by
  unfold out0_A_2
  unfold kernelRun0_A
  dsimp only
  try sl_unfold_words
  refine (View.read_writes_cons_unit_of_not_mem VO0_2 VO0_2.junk (k0_off1_inb i) _ _ y (k0_off1_eq i) 1 h).trans ?_
  rw [View.read_writes_junk_apply_eq_canon, View.canon_unit_zero zeros3]

end Cert.KernelIdeal.Band

end
-- ==== Proof.BandValue.lean ====
/-
  The values one grid point stores, read at an index.

  The zero fill is 0 everywhere. The band's value at row r and lane l of a point whose first grid coordinate is n is
  the product row ∑ₖ x₀[0, r, k] · x₁[k, l] of the point's two input blocks where the band's word of the global row
  64·n + r and the global column 256·n + l is set, and 0 where it is not: the body computes the product into a zero
  accumulator, builds the two global coordinates from the grid coordinate and two iotas, and selects.
-/
import proofs.«179926_j41463614275882_2_alg».proof.Proof.Gen.KernelIdeal.Skeleton
import proofs.«179926_j41463614275882_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Band

open Cert.KernelIdeal Cert.KernelIdeal.Gen Idealize.ShloMosaic Idealize.ShloMosaic.ValueIdx
open BandedProduct

/-- The zero fill is 0 at every index. -/
theorem fill_apply (y : S1x1024x256.Idx) : k0_pay1 (F := Ideal) y = 0 := by
  unfold k0_pay1
  show Ideal.ofBits .f32 0x00000000#32 = 0
  exact Ideal.ofBits_zero_f32

/-- A [64, 256] value stored as a [1, 64, 256] block reads (r, l) at (0, r, l). -/
theorem addUnit_apply {α : Type} (v : S64x256.Idx → α) (h : S64x256.ShapeCasts S1x64x256) (r : Fin 64) (l : Fin 256) :
    shapeCast S1x64x256 v h (ix3 (0 : Fin 1) r l) = v (ix2 r l) := by
  refine (shapeCast_addUnit_apply ![64, 256] v h (ix3 (0 : Fin 1) r l)).trans (congrArg v ?_)
  funext a
  match a with
  | ⟨0, _⟩ => rfl
  | ⟨1, _⟩ => rfl

/-- A [1, 64, 1024] block viewed as [64, 1024] reads (0, r, k) at (r, k). -/
theorem dropUnit_apply {α : Type} (v : S1x64x1024.Idx → α) (h : S1x64x1024.ShapeCasts S64x1024) (r : Fin 64) (k : Fin 1024) :
    shapeCast S64x1024 v h (ix2 r k) = v (ix3 (0 : Fin 1) r k) := by
  refine (shapeCast_dropUnit_apply ![64, 1024] v h (ix2 r k)).trans (congrArg v ?_)
  funext a
  match a with
  | ⟨0, _⟩ => rfl
  | ⟨1, _⟩ => rfl
  | ⟨2, _⟩ => rfl

/-- The product's left operand is read in the result's row … -/
theorem lhs_row (j : S64x256.Idx) (q : dot_S64x1024_S1024x256_S64x256_1_0_0_1_n_n.contr.Idx) : (dot_S64x1024_S1024x256_S64x256_1_0_0_1_n_n.lhsIdx j q 0).val = (j 0).val := by
  unfold DotDims.lhsIdx
  rw [dif_neg (show ¬(0 : Fin S64x1024.rank) ∈ dot_S64x1024_S1024x256_S64x256_1_0_0_1_n_n.lhsBatch by decide),
    dif_pos (show (0 : Fin S64x1024.rank) ∈ dot_S64x1024_S1024x256_S64x256_1_0_0_1_n_n.lhsNonContracting by decide)]
  rfl

/-- … at the sum's position, -/
theorem lhs_pos (j : S64x256.Idx) (q : dot_S64x1024_S1024x256_S64x256_1_0_0_1_n_n.contr.Idx) : (dot_S64x1024_S1024x256_S64x256_1_0_0_1_n_n.lhsIdx j q 1).val = (q ⟨0, by decide⟩).val :=
  dot_S64x1024_S1024x256_S64x256_1_0_0_1_n_n.lhsIdx_val_of_single rfl j q

/-- and the right operand at the sum's position … -/
theorem rhs_pos (j : S64x256.Idx) (q : dot_S64x1024_S1024x256_S64x256_1_0_0_1_n_n.contr.Idx) : (dot_S64x1024_S1024x256_S64x256_1_0_0_1_n_n.rhsIdx j q 0).val = (q ⟨0, by decide⟩).val :=
  dot_S64x1024_S1024x256_S64x256_1_0_0_1_n_n.rhsIdx_val_of_single rfl j q

/-- … in the result's column. -/
theorem rhs_col (j : S64x256.Idx) (q : dot_S64x1024_S1024x256_S64x256_1_0_0_1_n_n.contr.Idx) : (dot_S64x1024_S1024x256_S64x256_1_0_0_1_n_n.rhsIdx j q 1).val = (j 1).val := by
  unfold DotDims.rhsIdx
  rw [dif_neg (show ¬(1 : Fin S1024x256.rank) ∈ dot_S64x1024_S1024x256_S64x256_1_0_0_1_n_n.rhsBatch by decide),
    dif_pos (show (1 : Fin S1024x256.rank) ∈ dot_S64x1024_S1024x256_S64x256_1_0_0_1_n_n.rhsNonContracting by decide)]
  rfl

/-- The body's matrix product into a zero accumulator, at (r, l): the sum over k of a[r, k] · b[k, l]. -/
theorem product_apply (a : FVec Ideal S64x1024 .f32) (b : FVec Ideal S1024x256 .f32) (r : Fin 64) (l : Fin 256) :
    matmul dot_S64x1024_S1024x256_S64x256_1_0_0_1_n_n (some .fp32) a b (constant S64x256 .f32 0x00000000#32) (ix2 r l)
      = ∑ k : Fin 1024, a (ix2 r k) * b (ix2 k l) := by
  show FloatOps.matmul dot_S64x1024_S1024x256_S64x256_1_0_0_1_n_n (some .fp32) a b (constant S64x256 .f32 0x00000000#32) (ix2 r l) = _
  rw [Ideal.matmul_constant_zero_apply, ← Equiv.sum_comp (contrEquiv1 dot_S64x1024_S1024x256_S64x256_1_0_0_1_n_n 1024 rfl rfl).symm]
  refine Finset.sum_congr rfl fun k _ => ?_
  have hk := contrEquiv1_symm_val dot_S64x1024_S1024x256_S64x256_1_0_0_1_n_n 1024 rfl rfl k
  have el : dot_S64x1024_S1024x256_S64x256_1_0_0_1_n_n.lhsIdx (ix2 r l) ((contrEquiv1 dot_S64x1024_S1024x256_S64x256_1_0_0_1_n_n 1024 rfl rfl).symm k) = ix2 r k := funext fun a => Fin.ext (by
    match a with
    | ⟨0, _⟩ => exact lhs_row _ _
    | ⟨1, _⟩ => exact (lhs_pos _ _).trans hk)
  have er : dot_S64x1024_S1024x256_S64x256_1_0_0_1_n_n.rhsIdx (ix2 r l) ((contrEquiv1 dot_S64x1024_S1024x256_S64x256_1_0_0_1_n_n 1024 rfl rfl).symm k) = ix2 k l := funext fun a => Fin.ext (by
    match a with
    | ⟨0, _⟩ => exact (rhs_pos _ _).trans hk
    | ⟨1, _⟩ => exact rhs_col _ _)
  rw [el, er]

/-- The global row's word: the point's first row 64·n plus the row within the band. -/
theorem row_word (n r : Nat) : IntOp.addi (Scalar.muli (BitVec.ofNat 32 n) 64#32) (BitVec.ofNat 32 r) = BitVec.ofNat 32 (64 * n + r) := by
  apply BitVec.eq_of_toNat_eq
  simp only [IntOp.addi, Scalar.muli, IntOp.muli, BitVec.toNat_add, BitVec.toNat_mul, BitVec.toNat_ofNat]
  omega

/-- The global column's word: the point's first column 256·n plus the lane. -/
theorem col_word (n l : Nat) : IntOp.addi (Scalar.muli (BitVec.ofNat 32 n) 256#32) (BitVec.ofNat 32 l) = BitVec.ofNat 32 (256 * n + l) := by
  apply BitVec.eq_of_toNat_eq
  simp only [IntOp.addi, Scalar.muli, IntOp.muli, BitVec.toNat_add, BitVec.toNat_mul, BitVec.toNat_ofNat]
  omega

/-- The band's value at row `r`, lane `l`. -/
theorem band_apply (i : grid0.Coords) (x0 : Vec Ideal S1x64x1024 .f32) (x1 : Vec Ideal S1024x256 .f32) (r : Fin 64) (l : Fin 256) :
    k0_pay2 i x0 x1 (ix3 (0 : Fin 1) r l)
      = Scalar.select (bandWord (BitVec.ofNat 32 (64 * (i 0).val + r.val)) (BitVec.ofNat 32 (256 * (i 0).val + l.val)))
          (∑ k : Fin 1024, x0 (ix3 (0 : Fin 1) r k) * x1 (ix2 k l)) 0 := by
  unfold k0_pay2
  dsimp only
  refine (addUnit_apply _ _ r l).trans ?_
  rw [select_apply]
  refine congr (congr (congrArg Scalar.select ?_) ?_) ?_
  · show bandWord
        (IntOp.addi (Scalar.muli (BitVec.ofNat 32 (i 0).val) 64#32) (iota .tc S64x256 32 [0] iota_S64x256_d0_w32 (ix2 r l)))
        (IntOp.addi (Scalar.muli (BitVec.ofNat 32 (i 0).val) 256#32) (iota .tc S64x256 32 [1] iota_S64x256_d1_w32 (ix2 r l))) = _
    rw [iota_single_apply, iota_single_apply, row_word, col_word]
  · exact (product_apply _ _ r l).trans (Finset.sum_congr rfl fun k _ => by rw [dropUnit_apply])
  · show Ideal.ofBits .f32 0x00000000#32 = 0
    exact Ideal.ofBits_zero_f32

end Cert.KernelIdeal.Band

end
-- ==== Proof.BandPoints.lean ====
/-
  Which blocks a grid point works on.

  The grid is 16 × 16: the first coordinate n picks a block of 256 columns, the second coordinate b a batch. Point
  (n, b) reads block (b, n, 0) of x in [1, 64, 1024] blocks (rows 64·n … 64·n + 63 of x[b]), block (0, n) of W in
  [1024, 256] blocks (columns 256·n … 256·n + 255) and writes block (b, 0, n) of the result in [1, 1024, 256] blocks.
  The facts are decided over the 256 points.
-/
import proofs.«179926_j41463614275882_2_alg».proof.Proof.Gen.KernelIdeal.Value

noncomputable section

open Idealize.ShloMosaic Idealize.ShloMosaic.TcCoe Idealize.SL.Sem

namespace Cert.KernelIdeal.Band

open Cert.KernelIdeal Cert.KernelIdeal.Gen

/-- The printed index maps over the grid: the x block's batch and row block are the output block's batch and column
    block, the W block's column block is the output's, and the first grid coordinate is that column block. -/
theorem index_facts : ∀ t : Fin cfg0.N,
    win0_0.index t (0 : Fin 3) = win0_2.index t (0 : Fin 3) ∧ win0_0.index t (1 : Fin 3) = win0_2.index t (2 : Fin 3)
    ∧ win0_0.index t (2 : Fin 3) = 0 ∧ win0_1.index t (0 : Fin 2) = 0 ∧ win0_1.index t (1 : Fin 2) = win0_2.index t (2 : Fin 3)
    ∧ win0_2.index t (1 : Fin 3) = 0 ∧ win0_2.index t (0 : Fin 3) < 16 ∧ win0_2.index t (2 : Fin 3) < 16
    ∧ (grid0.coords t 0).val = win0_2.index t (2 : Fin 3) :=
  (by decide +kernel : ∀ t : Fin grid0.N, _)

/-- Every (batch, column block) is some grid point's. -/
theorem index_onto : ∀ (b : Fin 16) (n : Fin 16), ∃ t : Fin cfg0.N, win0_2.index t = ![b.val, 0, n.val] :=
  (by decide +kernel : ∀ (b : Fin 16) (n : Fin 16), ∃ t : Fin grid0.N, win0_2.index t = ![b.val, 0, n.val])

end Cert.KernelIdeal.Band

end
-- ==== Proof.BandArray.lean ====
/-
  From the grid points' blocks to the whole result array.

  Grid point (n, b) works on batch b and on the columns 256·n … 256·n + 255: it reads rows 64·n … 64·n + 63 of x[b]
  and those columns of W, and writes back the [1024, 256] slab of the result at batch b and those columns. A column j
  in that slab belongs to the band of row s only if s = j / 4, and then 64·n ≤ s < 64·n + 64: so inside the 64 rows the
  point computes, the slab is the product masked to the band, and on every other row of the slab the banded product is
  0, which is what the zero fill left there. Each slab is therefore a block of ONE function of the two arguments, the
  banded product; the 256 slabs tile the result array, so the array ends holding the banded product.
-/
import proofs.«179926_j41463614275882_2_alg».proof.Proof.Gen.KernelIdeal.Value
import proofs.«179926_j41463614275882_2_alg».proof.Proof.Spec
import proofs.«179926_j41463614275882_2_alg».proof.Proof.BandBlock
import proofs.«179926_j41463614275882_2_alg».proof.Proof.BandValue
import proofs.«179926_j41463614275882_2_alg».proof.Proof.BandPoints
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.Band

open Cert.KernelIdeal Cert.KernelIdeal.Gen Cert.KernelIdeal.Value Idealize.ShloMosaic.ValueIdx
open BandedProduct

variable (m : (ℓ : Loc nD τ sig) → Buf (Elt Ideal) ℓ) (ρ : Dev nD → PrngReg)

/-- One grid point's output block is the block of the banded product of any two arrays X and W that the point's input
    blocks are blocks of: `j` is the array index of the block's element `y` (same row; column 256·n further on),
    `x0` holds rows 64·n … of X at `j`'s batch, `x1` the block's columns of W. -/
theorem point_eq (c : Dev nD) (i : grid0.Coords) (arg2 : Memref sig .tc .vmem S1x64x1024 .f32) (harg2 : arg2.IsWhole)
    (arg3 : Memref sig .tc .vmem S1024x256 .f32) (harg3 : arg3.IsWhole) (arg4 : Memref sig .tc .vmem S1x1024x256 .f32)
    (harg4 : arg4.IsWhole) (x0 : Vec Ideal S1x64x1024 .f32) (x1 : Vec Ideal S1024x256 .f32)
    (X : SX.Idx → EReal) (W : SW.Idx → EReal) (y : S1x1024x256.Idx) (j : SY.Idx)
    (hj1 : (j 1).val = (y 1).val) (hj2 : (j 2).val = 256 * (i 0).val + (y 2).val)
    (hx0 : ∀ (r : Fin 64) (k : Fin 1024), (j 1).val = 64 * (i 0).val + r.val → x0 (ix3 (0 : Fin 1) r k) = X (xAt j k))
    (hx1 : ∀ (k : Fin 1024) (l : Fin 256), l.val = (y 2).val → x1 (ix2 k l) = W (wAt j k)) :
    out0_A_2 c i arg2 harg2 arg3 harg3 arg4 harg4 x0 x1 y = banded X W j := by
  have hy0 : (y 0).val < 1 := (y 0).isLt
  have hy1 : (y 1).val < 1024 := (y 1).isLt
  have hy2 : (y 2).val < 256 := (y 2).isLt
  have hj1' : (j 1).val < 1024 := (j 1).isLt
  have hj2' : (j 2).val < 4096 := (j 2).isLt
  unfold banded
  by_cases hb : 64 * (i 0).val ≤ (y 1).val ∧ (y 1).val < 64 * (i 0).val + 64
  · have hr : (y 1).val - 64 * (i 0).val < 64 := by omega
    rw [block_in_band c i arg2 harg2 arg3 harg3 arg4 harg4 x0 x1 y
      (ix3 (0 : Fin 1) (⟨(y 1).val - 64 * (i 0).val, hr⟩ : Fin 64) (⟨(y 2).val, hy2⟩ : Fin 256)) (fun a => by
        match a with
        | ⟨0, _⟩ => show (y 0).val = 0 + 0; omega
        | ⟨1, _⟩ => show (y 1).val = 64 * (i 0).val + ((y 1).val - 64 * (i 0).val); omega
        | ⟨2, _⟩ => show (y 2).val = 0 + (y 2).val; omega),
      band_apply]
    have e1 : 64 * (i 0).val + ((y 1).val - 64 * (i 0).val) = (j 1).val := by omega
    have e2 : 256 * (i 0).val + (y 2).val = (j 2).val := by omega
    show Scalar.select (bandWord (BitVec.ofNat 32 (64 * (i 0).val + ((y 1).val - 64 * (i 0).val)))
      (BitVec.ofNat 32 (256 * (i 0).val + (y 2).val))) _ 0 = _
    rw [e1, e2]
    by_cases h : 4 * (j 1).val ≤ (j 2).val ∧ (j 2).val < 4 * (j 1).val + 4
    · rw [if_pos h, (bandWord_eq_one_iff _ _ hj1' hj2').mpr h, select_one]
      exact Finset.sum_congr rfl fun k _ => by rw [hx0 ⟨(y 1).val - 64 * (i 0).val, hr⟩ k e1.symm, hx1 k ⟨(y 2).val, hy2⟩ rfl]
    · rw [if_neg h, eq_zero_of_ne_one (fun e => h ((bandWord_eq_one_iff _ _ hj1' hj2').mp e)), select_zero]
  · rw [block_off_band c i arg2 harg2 arg3 harg3 arg4 harg4 x0 x1 y (by omega), fill_apply, if_neg (by omega)]

/-- WHAT POINT `t` WRITES BACK is block `t` of the banded product of the argument arrays as the region finds them. -/
theorem flushed_eq (c : Dev nD) (t : Fin cfg0.N) :
    (dats m 0 c).flushed 2 t
      = ((cfg0.win 2).blk t).view.read (Elt Ideal) (banded (V m c main_arg0) (V m c main_arg1)) := by
  rw [flushed2_A]
  obtain ⟨e0, e1, e2, e3, e4, e5, e6, e7, e8⟩ := index_facts t
  funext y
  show out0_A_2 c (grid0.coords t) (ms0_0 t) (hs0_0 t) (ms0_1 t) (hs0_1 t) (ms0_2 t) (hs0_2 t) (iblk m c 0 t) (iblk m c 1 t) y
      = banded (V m c main_arg0) (V m c main_arg1) (((cfg0.win 2).blk t).view.emb y)
  have hy0 : (y 0).val < 1 := (y 0).isLt
  refine point_eq c (grid0.coords t) (ms0_0 t) (hs0_0 t) (ms0_1 t) (hs0_1 t) (ms0_2 t) (hs0_2 t) (iblk m c 0 t) (iblk m c 1 t)
    (V m c main_arg0) (V m c main_arg1) y (((cfg0.win 2).blk t).view.emb y) ?_ ?_ ?_ ?_
  · show win0_2.index t (1 : Fin 3) * 1024 + 1 * (y 1).val = (y 1).val
    omega
  · show win0_2.index t (2 : Fin 3) * 256 + 1 * (y 2).val = 256 * (grid0.coords t 0).val + (y 2).val
    omega
  · intro r k hr
    have hr' : win0_2.index t (1 : Fin 3) * 1024 + 1 * (y 1).val = 64 * (grid0.coords t 0).val + r.val := hr
    show V m c main_arg0 (((cfg0.win 0).blk t).view.emb (ix3 (0 : Fin 1) r k))
      = V m c main_arg0 (xAt (((cfg0.win 2).blk t).view.emb y) k)
    congr 1
    funext a
    apply Fin.ext
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 64 + 1 * r.val = win0_2.index t (1 : Fin 3) * 1024 + 1 * (y 1).val
      omega
    | ⟨2, _⟩ =>
      show win0_0.index t (2 : Fin 3) * 1024 + 1 * k.val = k.val
      omega
  · intro k l hl
    show V m c main_arg1 (((cfg0.win 1).blk t).view.emb (ix2 k l))
      = V m c main_arg1 (wAt (((cfg0.win 2).blk t).view.emb y) k)
    congr 1
    funext a
    apply Fin.ext
    match a with
    | ⟨0, _⟩ =>
      show win0_1.index t (0 : Fin 2) * 1024 + 1 * k.val = k.val
      omega
    | ⟨1, _⟩ =>
      show win0_1.index t (1 : Fin 2) * 256 + 1 * l.val = win0_2.index t (2 : Fin 3) * 256 + 1 * (y 2).val
      omega

/-- An index of the result array is in point `t`'s block when each coordinate is in the block's range on its axis. -/
theorem mem_blk (t : Fin cfg0.N) (i : S16x1024x4096.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v0).slice (win0_2.rect t)).set ↔ _
  rw [View.set_slice_whole, Rect.mem_set_unit]
  exact Iff.rfl

/-- The blocks tile the result array: entry (b, s, j) is in the block of the point with batch b and column block j / 256. -/
theorem covered (i : S16x1024x4096.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 4096 := (i 2).isLt
  obtain ⟨t, ht⟩ := index_onto ⟨(i 0).val, h0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 256 ≤ (i 2).val ∧ (i 2).val < win0_2.index t (2 : Fin 3) * 256 + 256
    omega

/-- THE RESULT ARRAY after the run is the banded product of the argument arrays. -/
theorem final (c : Dev nD) : (dats m 0 c).arrAt 2 cfg0.N = banded (V m c main_arg0) (V m c main_arg1) :=
  (dats m 0 c).arrAt_eq_of_cover 2 (banded (V m c main_arg0) (V m c main_arg1)) (fun t _ => flushed_eq m c t) covered

/-- The kernel's run, read: the result array at the banded product of the arguments, the arguments unchanged. -/
theorem run : θ_run defs (onTc (τ := τ) (main (F := Ideal))) ⟨m, fun _ => 0, ρ⟩ fun r => ∀ c : Dev nD,
      r.2.mem ((c : Thread nD τ).loc main_v0)
        = banded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Band

end
-- ==== Proof.lean ====
/-
  The banded ("butterfly") linear layer: y[b, s, j] = (∑ₖ x[b, s, k] · W[k, j]) · mask[s, j] with mask[s, j] = 1 for
  4·s ≤ j < 4·s + 4 and 0 elsewhere, for x of shape [16, 1024, 1024] and W of shape [1024, 4096].

  The kernel tiles the 4096 columns into 16 blocks of 256. For column block n only rows 64·n … 64·n + 63 have their band
  inside the block, so a grid point (n, b) multiplies just those 64 rows of x[b] with the block's 256 columns of W,
  keeps the entries whose column is in their row's band, and writes them into an otherwise zero [1024, 256] slab of
  the result. The reference multiplies every row and then multiplies by the mask.

  Over the extended reals both are the same function of x and W (Proof/Spec.lean, `BandedProduct.banded`): the sum
  where the column is in the row's band and 0 elsewhere. On the reference's side the law is t · 1 = t and t · 0 = 0,
  which hold for every extended real t, so the claim does not use the finiteness of the inputs. On the kernel's
  side a column in row s's band lies in column block s / 64, so every row outside a point's 64 rows has no band
  column in the point's slab, where the kernel left zeros.

  The modules: Spec (the function and the band's condition on 32-bit words), ReferenceBanded (the reference is the
  function), BandBlock (what one point's two stores leave in its block), BandValue (the two stored values at an
  index), BandPoints (which blocks a point works on), BandArray (the blocks are blocks of the function, and they
  tile the result).
-/
import proofs.«179926_j41463614275882_2_alg».proof.Defs
import proofs.«179926_j41463614275882_2_alg».proof.Proof.Gen.Kernel
import proofs.«179926_j41463614275882_2_alg».proof.Proof.Gen.Kernel.Skeleton
import proofs.«179926_j41463614275882_2_alg».proof.Proof.Gen.Kernel.Launch
import proofs.«179926_j41463614275882_2_alg».proof.Proof.Gen.Kernel.Points
import proofs.«179926_j41463614275882_2_alg».proof.Proof.Gen.Kernel.Frame
import proofs.«179926_j41463614275882_2_alg».proof.Proof.Gen.KernelIdeal
import proofs.«179926_j41463614275882_2_alg».proof.Proof.Gen.KernelIdeal.Skeleton
import proofs.«179926_j41463614275882_2_alg».proof.Proof.Gen.KernelIdeal.Launch
import proofs.«179926_j41463614275882_2_alg».proof.Proof.Gen.KernelIdeal.Points
import proofs.«179926_j41463614275882_2_alg».proof.Proof.Gen.KernelIdeal.Frame
import proofs.«179926_j41463614275882_2_alg».proof.Proof.Gen.ReferenceIdeal
import proofs.«179926_j41463614275882_2_alg».proof.Proof.Gen.Pre_finite_inputs
import proofs.«179926_j41463614275882_2_alg».proof.Proof.Gen.KernelIdeal.Value
import proofs.«179926_j41463614275882_2_alg».proof.Proof.Gen.ReferenceIdeal.Run
import proofs.«179926_j41463614275882_2_alg».proof.Proof.Gen.ReferenceIdeal.Read
import proofs.«179926_j41463614275882_2_alg».proof.Proof.Spec
import proofs.«179926_j41463614275882_2_alg».proof.Proof.ReferenceBanded
import proofs.«179926_j41463614275882_2_alg».proof.Proof.BandArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the banded product of the
    arguments. -/
theorem algebraic : Cert.algebraic_KernelIdeal_ReferenceIdeal := by
  intro m ρ m' ρ' _ hagree
  refine ⟨_, Cert.KernelIdeal.Band.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Banded.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
